-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S1024x2048 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x2048 .f32) (main_arg3 : FVec F S1024 .f32) (main_arg4 : FVec F S1024x2048 .f32) (main_arg5 : FVec F S1024 .f32) (main_arg6 : FVec F S1024x2048 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 22
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S2048x1024, .bf16⟩
  | .hbm, ⟨16, _⟩ => ⟨S2048x1024, .f32⟩
  | .hbm, ⟨17, _⟩ => ⟨S2048x1024, .bf16⟩
  | .hbm, ⟨18, _⟩ => ⟨S1024x1024, .bf16⟩
  | .hbm, ⟨19, _⟩ => ⟨S1024x1024, .bf16⟩
  | .hbm, ⟨20, _⟩ => ⟨S2048, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048, .f32⟩
  | .local _ .vmem, ⟨9, _⟩ => ⟨S1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S2048x1024_d0 : Shape.Concatenates [S1024x1024, S1024x1024] S2048x1024 0
  bitsLt_bf16_f32 : FTy.bits .bf16 < FTy.bits .f32
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048_S2048_0 : ∀ a, (![0] : Fin 1 → Nat) a + S2048.size a ≤ S2048.size a
  h_S2048 : 0 < S2048.numel
  shapeCasts_S2048_S2048 : S2048.ShapeCasts S2048
  inb_S1024_S1024_0 : ∀ a, (![0] : Fin 1 → Nat) a + S1024.size a ≤ S1024.size a
  h_S1024 : 0 < S1024.numel
  shapeCasts_S2048_S1x2048 : S2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  shapeCasts_S1024_S1x1024 : S1024.ShapeCasts S1x1024
  broadcasts_S1x1024_S512x1024 : S1x1024.Broadcasts S512x1024
  dot_S512x1024_S2048x1024_S512x2048_1_1_0_0_n_n_wf : DotDims.WF S512x1024 S2048x1024 S512x2048 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S8192x2048, .f32⟩
  | .hbm, ⟨9, _⟩ => ⟨S2048x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S2048x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S2048x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.GruSpec.lean ====
/-
  The gated recurrent cell as ONE function of its eight argument arrays, index by index, on the extended reals.

  For a batch row with hidden state `h` and input `x` (1024 numbers each) and a weight matrix `W` of 1024 rows and
  2048 columns — its first 1024 columns meet the hidden state, its last 1024 the input — the pre-activation of unit `j`
  is  ⟨h, W[j, :1024]⟩ + ⟨x, W[j, 1024:]⟩ + bias[j].  The update gate `z` and the reset gate `r` are its logistic
  under (W_z, b_z) and (W_r, b_r); the candidate is the hyperbolic tangent of the same pre-activation under
  (W_h, b_h) with `r ⊙ h` in the hidden state's place; the new state is (1 − z) · h + z · candidate.

  Also here: a sum over 2048 terms is the sum over its first 1024 plus the sum over its last 1024 (true in any
  commutative monoid, so on the extended reals with no finiteness asked), and the logistic spelt as
  1 / (1 + e^(−p)) with the f32 pattern of one is the logistic.
-/
import Idealize.ShloMosaic.PureOps.Ideal
import Idealize.ShloMosaic.Lib.ValueIdx
import Idealize.ShloMosaic.Lib.IdealHost

noncomputable section

open scoped BigOperators

namespace Cert.Gru

open Idealize.ShloMosaic Idealize.ShloMosaic.ValueIdx

/-- A matrix of extended reals, indexed by row and column. -/
abbrev Mat (a b : Nat) : Type := (⟨2, ![a, b]⟩ : Shape).Idx → EReal
/-- A vector of extended reals. -/
abbrev Row (a : Nat) : Type := (⟨1, ![a]⟩ : Shape).Idx → EReal

/-- Column `k` of a weight matrix's hidden-state half. -/
def lo (k : Fin 1024) : Fin 2048 := ⟨k.val, by omega⟩
/-- Column `k` of its input half. -/
def hi (k : Fin 1024) : Fin 2048 := ⟨1024 + k.val, by omega⟩

@[simp] theorem lo_val (k : Fin 1024) : (lo k).val = k.val := rfl
@[simp] theorem hi_val (k : Fin 1024) : (hi k).val = 1024 + k.val := rfl

/-- A sum over 2048 terms, split at the middle. -/
theorem sum_halves {M : Type} [AddCommMonoid M] (f : Fin 2048 → M) :
    ∑ k : Fin 2048, f k = ∑ k : Fin 1024, f (lo k) + ∑ k : Fin 1024, f (hi k) :=
  Fin.sum_univ_add (a := 1024) (b := 1024) f

/-- The f32 pattern of the number one. -/
def one : EReal := Ideal.ofBits .f32 0x3F800000#32

theorem one_eq : one = 1 := Ideal.ofBits_one_f32

/-- The logistic, spelt as a quotient over the f32 one. -/
theorem div_one_add_exp_neg (p : EReal) : Ideal.div one (one + Ideal.exp (-p)) = Ideal.logistic p := by
  rw [one_eq]; rfl

/-- Unit `j`'s pre-activation from a row's hidden part `hrow` and input part `xrow`. -/
def pre (hrow xrow : Fin 1024 → EReal) (W : Mat 1024 2048) (bias : Row 1024) (j : Fin 1024) : EReal :=
  ((∑ k : Fin 1024, hrow k * W (ix2 j (lo k))) + ∑ k : Fin 1024, xrow k * W (ix2 j (hi k))) + bias (ix1 j)

/-- One batch row of the cell: the new hidden state's unit `j`. -/
def cellRow (hrow xrow : Fin 1024 → EReal) (Wz : Mat 1024 2048) (bz : Row 1024) (Wr : Mat 1024 2048) (br : Row 1024)
    (Wh : Mat 1024 2048) (bh : Row 1024) (j : Fin 1024) : EReal :=
  (one - Ideal.logistic (pre hrow xrow Wz bz j)) * hrow j
    + Ideal.logistic (pre hrow xrow Wz bz j)
      * Ideal.tanh (pre (fun k => Ideal.logistic (pre hrow xrow Wr br k) * hrow k) xrow Wh bh j)

/-- The whole result: row `b` of it is the cell at row `b` of `h` and of `x`. -/
def cell (x h : Mat 8192 1024) (Wz : Mat 1024 2048) (bz : Row 1024) (Wr : Mat 1024 2048) (br : Row 1024)
    (Wh : Mat 1024 2048) (bh : Row 1024) : Mat 8192 1024 := fun i =>
  cellRow (fun k => h (ix2 ⟨(i 0).val, idx2_lt0 i⟩ k)) (fun k => x (ix2 ⟨(i 0).val, idx2_lt0 i⟩ k)) Wz bz Wr br Wh bh
    ⟨(i 1).val, idx2_lt1 i⟩

theorem cell_apply (x h : Mat 8192 1024) (Wz : Mat 1024 2048) (bz : Row 1024) (Wr : Mat 1024 2048) (br : Row 1024)
    (Wh : Mat 1024 2048) (bh : Row 1024) (b : Fin 8192) (j : Fin 1024) :
    cell x h Wz bz Wr br Wh bh (ix2 b j)
      = cellRow (fun k => h (ix2 b k)) (fun k => x (ix2 b k)) Wz bz Wr br Wh bh j := rfl

end Cert.Gru

end
-- ==== Proof.RefIsCell.lean ====
/-
  The reference program's last stage is the cell function of GruSpec.lean, index by index.

  The reference joins the hidden state and the input along the columns, [h | x], and multiplies by the transposed
  weight matrix: entry (b, j) of that product is a sum over the 2048 joined columns, which splits at column 1024
  into ⟨h_b, W[j, :1024]⟩ + ⟨x_b, W[j, 1024:]⟩ (`dot_rows`). Its logistic is spelt 1 / (1 + e^(−p)), which is the
  logistic (`gate`). The candidate's product joins [r ⊙ h | x] in the same way (`candidate_pre`).
-/
import proofs.«173993_j78451872628868_2_alg».proof.Proof.RefRead
import proofs.«173993_j78451872628868_2_alg».proof.Proof.GruSpec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Gru

/-- The columns-joined array [A | B], read in its first 1024 columns, is A. -/
theorem cat_lo {α : Type} (A B : S8192x1024.Idx → α) (h : Shape.Concatenates [S8192x1024, S8192x1024] S8192x2048 1)
    (b : Fin 8192) (k : Fin 1024) :
    concatenate S8192x2048 1 [⟨S8192x1024, A⟩, ⟨S8192x1024, B⟩] h (ix2 b (lo k)) = A (ix2 b k) :=
  concatenate_pair_apply_left (1 : Fin 2) A B h (ix2 b (lo k)) rfl (ix2 b k)
    (fun a => match a with | ⟨0, _⟩ => rfl | ⟨1, _⟩ => rfl)

/-- Read in its last 1024 columns, it is B. -/
theorem cat_hi {α : Type} (A B : S8192x1024.Idx → α) (h : Shape.Concatenates [S8192x1024, S8192x1024] S8192x2048 1)
    (b : Fin 8192) (k : Fin 1024) :
    concatenate S8192x2048 1 [⟨S8192x1024, A⟩, ⟨S8192x1024, B⟩] h (ix2 b (hi k)) = B (ix2 b k) :=
  concatenate_pair_apply_right (1 : Fin 2) A B h (ix2 b (hi k)) rfl rfl (ix2 b k)
    (fun a ha => match a, ha with
      | ⟨0, _⟩, _ => rfl
      | ⟨1, _⟩, ha => absurd rfl ha)
    (by show k.val + 1024 = 1024 + k.val; omega)

variable (x0 x1 : (⟨S8192x1024, .f32⟩ : BufTy).Contents (Elt Ideal))

/-- Entry (b, j) of [x1 | x0] · Wᵀ: the row of x1 against the first half of row j of W, plus the row of x0 against its
    second half. -/
theorem dot_rows (W : (⟨S1024x2048, .f32⟩ : BufTy).Contents (Elt Ideal)) (b : Fin 8192) (j : Fin 1024) :
    val_main_v2 (F := Ideal) x0 x1 W (ix2 b j)
      = (∑ k : Fin 1024, x1 (ix2 b k) * W (ix2 j (lo k))) + ∑ k : Fin 1024, x0 (ix2 b k) * W (ix2 j (hi k)) := by
  rw [val_main_v2_apply]
  refine (sum_halves _).trans ?_
  congr 1 <;> refine Finset.sum_congr rfl fun k _ => ?_
  · have e1 : lidx_main_v2 (ix2 b j) (lo k) = ix2 b (lo k) :=
      funext fun a => Fin.ext (by match a with | ⟨0, _⟩ => rfl | ⟨1, _⟩ => rfl)
    have e2 : idx_main_v1 (ridx_main_v2 (ix2 b j) (lo k)) = ix2 j (lo k) :=
      funext fun a => Fin.ext (by match a with | ⟨0, _⟩ => rfl | ⟨1, _⟩ => rfl)
    rw [val_main_v1_apply, e1, e2]
    unfold val_main_v0
    rw [cat_lo]
  · have e1 : lidx_main_v2 (ix2 b j) (hi k) = ix2 b (hi k) :=
      funext fun a => Fin.ext (by match a with | ⟨0, _⟩ => rfl | ⟨1, _⟩ => rfl)
    have e2 : idx_main_v1 (ridx_main_v2 (ix2 b j) (hi k)) = ix2 j (hi k) :=
      funext fun a => Fin.ext (by match a with | ⟨0, _⟩ => rfl | ⟨1, _⟩ => rfl)
    rw [val_main_v1_apply, e1, e2]
    unfold val_main_v0
    rw [cat_hi]

/-- The bias, broadcast over the batch rows, read at (b, j). -/
theorem bias_at (v : (⟨S1024, .f32⟩ : BufTy).Contents (Elt Ideal)) (b : Fin 8192) (j : Fin 1024) :
    val_main_v4 (F := Ideal) v (ix2 b j) = v (ix1 j) := by
  rw [val_main_v4_apply, val_main_v3_apply]
  exact congrArg v (funext fun a => Fin.ext (by match a with | ⟨0, _⟩ => rfl))

/-- A gate's pre-activation at (b, j). -/
theorem gate_pre (W : (⟨S1024x2048, .f32⟩ : BufTy).Contents (Elt Ideal)) (v : (⟨S1024, .f32⟩ : BufTy).Contents (Elt Ideal))
    (b : Fin 8192) (j : Fin 1024) :
    val_main_v5 (F := Ideal) x0 x1 W v (ix2 b j) = pre (fun k => x1 (ix2 b k)) (fun k => x0 (ix2 b k)) W v j := by
  rw [val_main_v5_apply, dot_rows, bias_at]
  rfl

/-- A gate at (b, j): the quotient 1 / (1 + e^(−p)) over the f32 one is the logistic of the pre-activation. -/
theorem gate (W : (⟨S1024x2048, .f32⟩ : BufTy).Contents (Elt Ideal)) (v : (⟨S1024, .f32⟩ : BufTy).Contents (Elt Ideal))
    (b : Fin 8192) (j : Fin 1024) :
    val_main_v11 (F := Ideal) x0 x1 W v (ix2 b j)
      = Ideal.logistic (pre (fun k => x1 (ix2 b k)) (fun k => x0 (ix2 b k)) W v j) := by
  rw [val_main_v11_apply, val_main_v10_apply, val_main_cst_0_apply, val_main_v9_apply, val_main_v8_apply,
    val_main_cst_apply, val_main_v7_apply, val_main_v6_apply, gate_pre]
  exact div_one_add_exp_neg _

/-- The reset gate times the hidden state, at (b, k). -/
theorem reset_state (W : (⟨S1024x2048, .f32⟩ : BufTy).Contents (Elt Ideal)) (v : (⟨S1024, .f32⟩ : BufTy).Contents (Elt Ideal))
    (b : Fin 8192) (k : Fin 1024) :
    val_main_v23 (F := Ideal) x0 x1 W v (ix2 b k)
      = Ideal.logistic (pre (fun k => x1 (ix2 b k)) (fun k => x0 (ix2 b k)) W v k) * x1 (ix2 b k) := by
  rw [val_main_v23_apply, show val_main_v22 (F := Ideal) x0 x1 W v = val_main_v11 (F := Ideal) x0 x1 W v from rfl, gate]
  rfl

/-- The candidate's pre-activation at (b, j): the same product with r ⊙ h in the hidden state's place. -/
theorem candidate_pre (Wr : (⟨S1024x2048, .f32⟩ : BufTy).Contents (Elt Ideal)) (br : (⟨S1024, .f32⟩ : BufTy).Contents (Elt Ideal))
    (Wh : (⟨S1024x2048, .f32⟩ : BufTy).Contents (Elt Ideal)) (bh : (⟨S1024, .f32⟩ : BufTy).Contents (Elt Ideal))
    (b : Fin 8192) (j : Fin 1024) :
    val_main_v29 (F := Ideal) x0 x1 Wr br Wh bh (ix2 b j)
      = pre (fun k => Ideal.logistic (pre (fun k => x1 (ix2 b k)) (fun k => x0 (ix2 b k)) Wr br k) * x1 (ix2 b k))
          (fun k => x0 (ix2 b k)) Wh bh j := by
  rw [val_main_v29_apply,
    show val_main_v26 (F := Ideal) x0 x1 Wr br Wh = val_main_v2 (F := Ideal) x0 (val_main_v23 (F := Ideal) x0 x1 Wr br) Wh from rfl,
    dot_rows,
    show val_main_v28 (F := Ideal) bh = val_main_v4 (F := Ideal) bh from rfl, bias_at]
  simp only [reset_state]
  rfl

/-- THE REFERENCE'S RESULT is the cell function of its eight arguments. -/
theorem result_is_cell (Wz : (⟨S1024x2048, .f32⟩ : BufTy).Contents (Elt Ideal)) (bz : (⟨S1024, .f32⟩ : BufTy).Contents (Elt Ideal))
    (Wr : (⟨S1024x2048, .f32⟩ : BufTy).Contents (Elt Ideal)) (br : (⟨S1024, .f32⟩ : BufTy).Contents (Elt Ideal))
    (Wh : (⟨S1024x2048, .f32⟩ : BufTy).Contents (Elt Ideal)) (bh : (⟨S1024, .f32⟩ : BufTy).Contents (Elt Ideal)) :
    val_main_v35 (F := Ideal) x0 x1 Wz bz Wr br Wh bh = cell x0 x1 Wz bz Wr br Wh bh := by
  funext i
  obtain ⟨b, j, rfl⟩ : ∃ (b : Fin 8192) (j : Fin 1024), i = ix2 b j := ⟨i 0, i 1, eq_ix2 i⟩
  rw [cell_apply, val_main_v35_apply, val_main_v33_apply, val_main_v32_apply, val_main_v31_apply, val_main_cst_3_apply,
    val_main_v34_apply, val_main_v30_apply, gate, candidate_pre]
  rfl

end Cert.ReferenceIdeal.RefValue

end
-- ==== Proof.HostPrefix.lean ====
/-
  What the host operations before the kernel's launch leave in the arrays the kernel's weight and bias windows
  stage, read at an entry, in terms of the launch contents of the arguments.

  Each 1024 × 2048 weight matrix is cut into its hidden-state half (columns 0..1023) and its input half (columns
  1024..2047). The update and reset gates' hidden halves are stacked by rows into one 2048 × 1024 array — rows 0..1023
  the update gate's, rows 1024..2047 the reset gate's — and their input halves into another; the candidate's two halves
  stay apart; the two gates' biases are joined into one vector of 2048. The casts to the narrower float format are the
  identity on the extended reals.
-/
import proofs.«173993_j78451872628868_2_alg».proof.Proof.Gen.KernelIdeal.Frame
import proofs.«173993_j78451872628868_2_alg».proof.Proof.GruSpec
import Idealize.ShloMosaic.Lib.ValueLayout
import Idealize.ShloMosaic.Lib.StableHlo.Run

noncomputable section

namespace Cert.KernelIdeal.CellValue

open Cert.KernelIdeal Cert.KernelIdeal.Gen Idealize.ShloMosaic Idealize.ShloMosaic.TcCoe Idealize.SL.Sem
open Idealize.ShloMosaic.ValueIdx Idealize.ShloMosaic.StableHlo Cert.Gru

/-- Two column-halves (from column `o`) of two weight matrices stacked by rows: a row of the upper half is the
    first matrix's. -/
theorem stack_lo {α : Type} (o : Nat) (A B : S1024x2048.Idx → α) (hs : S1024x2048.Slices ![0, o] S1024x1024)
    (hc : Shape.Concatenates [S1024x1024, S1024x1024] S2048x1024 0) (j k : Fin 1024) (k' : Fin 2048) (hk : k'.val = o + k.val) :
    concatenate S2048x1024 0 [⟨S1024x1024, extractStridedSlice S1024x1024 ![0, o] A hs⟩,
      ⟨S1024x1024, extractStridedSlice S1024x1024 ![0, o] B hs⟩] hc (ix2 (lo j) k) = A (ix2 j k') :=
  (concatenate_pair_apply_left (0 : Fin 2) (extractStridedSlice S1024x1024 ![0, o] A hs) (extractStridedSlice S1024x1024 ![0, o] B hs) hc (ix2 (lo j) k) rfl (ix2 j k)
    (fun a => match a with | ⟨0, _⟩ => rfl | ⟨1, _⟩ => rfl)).trans (slice2_axis1_apply o A hs j k k' hk)

/-- A row of the lower half is the second matrix's. -/
theorem stack_hi {α : Type} (o : Nat) (A B : S1024x2048.Idx → α) (hs : S1024x2048.Slices ![0, o] S1024x1024)
    (hc : Shape.Concatenates [S1024x1024, S1024x1024] S2048x1024 0) (j k : Fin 1024) (k' : Fin 2048) (hk : k'.val = o + k.val) :
    concatenate S2048x1024 0 [⟨S1024x1024, extractStridedSlice S1024x1024 ![0, o] A hs⟩,
      ⟨S1024x1024, extractStridedSlice S1024x1024 ![0, o] B hs⟩] hc (ix2 (hi j) k) = B (ix2 j k') :=
  (concatenate_pair_apply_right (0 : Fin 2) (extractStridedSlice S1024x1024 ![0, o] A hs) (extractStridedSlice S1024x1024 ![0, o] B hs) hc (ix2 (hi j) k) rfl rfl (ix2 j k)
    (fun a ha => match a, ha with
      | ⟨0, _⟩, ha => absurd rfl ha
      | ⟨1, _⟩, _ => rfl)
    (by show j.val + 1024 = 1024 + j.val; omega)).trans (slice2_axis1_apply o B hs j k k' hk)

/-- Two vectors of 1024 joined: the first 1024 entries are the first vector's, -/
theorem join_lo {α : Type} (a b : S1024.Idx → α) (hc : Shape.Concatenates [S1024, S1024] S2048 0) (j : Fin 1024) :
    concatenate S2048 0 [⟨S1024, a⟩, ⟨S1024, b⟩] hc (ix1 (lo j)) = a (ix1 j) :=
  concatenate_pair_apply_left (0 : Fin 1) a b hc (ix1 (lo j)) rfl (ix1 j) (fun ax => match ax with | ⟨0, _⟩ => rfl)

/-- and the last 1024 the second's. -/
theorem join_hi {α : Type} (a b : S1024.Idx → α) (hc : Shape.Concatenates [S1024, S1024] S2048 0) (j : Fin 1024) :
    concatenate S2048 0 [⟨S1024, a⟩, ⟨S1024, b⟩] hc (ix1 (hi j)) = b (ix1 j) :=
  concatenate_pair_apply_right (0 : Fin 1) a b hc (ix1 (hi j)) rfl rfl (ix1 j)
    (fun ax ha => match ax, ha with | ⟨0, _⟩, ha => absurd rfl ha)
    (by show j.val + 1024 = 1024 + j.val; omega)

variable (m : (ℓ : Loc nD τ sig) → Buf (Elt Ideal) ℓ)

/-- The gates' stacked hidden-state halves, as the operations compute them. -/
theorem wzrh_term (c : Dev nD) :
    (V m c main_v7 : S2048x1024.Idx → EReal)
      = truncf (F := Ideal) (φ := .f32) .bf16 (concatenate S2048x1024 0
          [⟨S1024x1024, extractStridedSlice S1024x1024 ![0, 0] (m ((c : Thread nD τ).loc main_arg2)) slices_S1024x2048_S1024x1024_0_0⟩,
           ⟨S1024x1024, extractStridedSlice S1024x1024 ![0, 0] (m ((c : Thread nD τ).loc main_arg4)) slices_S1024x2048_S1024x1024_0_0⟩] concatenates_S1024x1024_S1024x1024_S2048x1024_d0) bitsLt_bf16_f32 := by
  dsimp only [V, hostOps0]; after_results

/-- The gates' stacked input halves. -/
theorem wzrx_term (c : Dev nD) :
    (V m c main_v9 : S2048x1024.Idx → EReal)
      = truncf (F := Ideal) (φ := .f32) .bf16 (concatenate S2048x1024 0
          [⟨S1024x1024, extractStridedSlice S1024x1024 ![0, 1024] (m ((c : Thread nD τ).loc main_arg2)) slices_S1024x2048_S1024x1024_0_1024⟩,
           ⟨S1024x1024, extractStridedSlice S1024x1024 ![0, 1024] (m ((c : Thread nD τ).loc main_arg4)) slices_S1024x2048_S1024x1024_0_1024⟩] concatenates_S1024x1024_S1024x1024_S2048x1024_d0) bitsLt_bf16_f32 := by
  dsimp only [V, hostOps0]; after_results

/-- The candidate's hidden-state half. -/
theorem whh_term (c : Dev nD) :
    (V m c main_v10 : S1024x1024.Idx → EReal)
      = truncf (F := Ideal) (φ := .f32) .bf16 (extractStridedSlice S1024x1024 ![0, 0] (m ((c : Thread nD τ).loc main_arg6)) slices_S1024x2048_S1024x1024_0_0) bitsLt_bf16_f32 := by
  dsimp only [V, hostOps0]; after_results

/-- The candidate's input half. -/
theorem whx_term (c : Dev nD) :
    (V m c main_v11 : S1024x1024.Idx → EReal)
      = truncf (F := Ideal) (φ := .f32) .bf16 (extractStridedSlice S1024x1024 ![0, 1024] (m ((c : Thread nD τ).loc main_arg6)) slices_S1024x2048_S1024x1024_0_1024) bitsLt_bf16_f32 := by
  dsimp only [V, hostOps0]; after_results

/-- The gates' joined bias. -/
theorem bzr_term (c : Dev nD) :
    (V m c main_v12 : S2048.Idx → EReal)
      = concatenate S2048 0 [⟨S1024, (m ((c : Thread nD τ).loc main_arg3))⟩, ⟨S1024, (m ((c : Thread nD τ).loc main_arg5))⟩] concatenates_S1024_S1024_S2048_d0 := by
  dsimp only [V, hostOps0]; after_results

/-! Read at an entry -/

theorem wzrh_lo (c : Dev nD) (j k : Fin 1024) :
    (V m c main_v7 : S2048x1024.Idx → EReal) (ix2 (lo j) k) = ((m ((c : Thread nD τ).loc main_arg2)) : S1024x2048.Idx → EReal) (ix2 j (lo k)) := by
  rw [wzrh_term]; refine (truncf_apply (ψ := .bf16) (φ := .f32) _ bitsLt_bf16_f32 _).trans ?_; exact stack_lo 0 _ _ _ _ j k (lo k) (by show k.val = 0 + k.val; omega)
theorem wzrh_hi (c : Dev nD) (j k : Fin 1024) :
    (V m c main_v7 : S2048x1024.Idx → EReal) (ix2 (hi j) k) = ((m ((c : Thread nD τ).loc main_arg4)) : S1024x2048.Idx → EReal) (ix2 j (lo k)) := by
  rw [wzrh_term]; refine (truncf_apply (ψ := .bf16) (φ := .f32) _ bitsLt_bf16_f32 _).trans ?_; exact stack_hi 0 _ _ _ _ j k (lo k) (by show k.val = 0 + k.val; omega)
theorem wzrx_lo (c : Dev nD) (j k : Fin 1024) :
    (V m c main_v9 : S2048x1024.Idx → EReal) (ix2 (lo j) k) = ((m ((c : Thread nD τ).loc main_arg2)) : S1024x2048.Idx → EReal) (ix2 j (hi k)) := by
  rw [wzrx_term]; refine (truncf_apply (ψ := .bf16) (φ := .f32) _ bitsLt_bf16_f32 _).trans ?_; exact stack_lo 1024 _ _ _ _ j k (hi k) rfl
theorem wzrx_hi (c : Dev nD) (j k : Fin 1024) :
    (V m c main_v9 : S2048x1024.Idx → EReal) (ix2 (hi j) k) = ((m ((c : Thread nD τ).loc main_arg4)) : S1024x2048.Idx → EReal) (ix2 j (hi k)) := by
  rw [wzrx_term]; refine (truncf_apply (ψ := .bf16) (φ := .f32) _ bitsLt_bf16_f32 _).trans ?_; exact stack_hi 1024 _ _ _ _ j k (hi k) rfl
theorem whh_at (c : Dev nD) (j k : Fin 1024) :
    (V m c main_v10 : S1024x1024.Idx → EReal) (ix2 j k) = ((m ((c : Thread nD τ).loc main_arg6)) : S1024x2048.Idx → EReal) (ix2 j (lo k)) := by
  rw [whh_term]; refine (truncf_apply (ψ := .bf16) (φ := .f32) _ bitsLt_bf16_f32 _).trans ?_; exact slice2_axis1_apply 0 _ _ j k (lo k) (by show k.val = 0 + k.val; omega)
theorem whx_at (c : Dev nD) (j k : Fin 1024) :
    (V m c main_v11 : S1024x1024.Idx → EReal) (ix2 j k) = ((m ((c : Thread nD τ).loc main_arg6)) : S1024x2048.Idx → EReal) (ix2 j (hi k)) := by
  rw [whx_term]; refine (truncf_apply (ψ := .bf16) (φ := .f32) _ bitsLt_bf16_f32 _).trans ?_; exact slice2_axis1_apply 1024 _ _ j k (hi k) rfl
theorem bzr_lo (c : Dev nD) (j : Fin 1024) :
    (V m c main_v12 : S2048.Idx → EReal) (ix1 (lo j)) = ((m ((c : Thread nD τ).loc main_arg3)) : S1024.Idx → EReal) (ix1 j) := by
  rw [bzr_term]; exact join_lo _ _ _ j
theorem bzr_hi (c : Dev nD) (j : Fin 1024) :
    (V m c main_v12 : S2048.Idx → EReal) (ix1 (hi j)) = ((m ((c : Thread nD τ).loc main_arg5)) : S1024.Idx → EReal) (ix1 j) := by
  rw [bzr_term]; exact join_hi _ _ _ j

end Cert.KernelIdeal.CellValue

end
-- ==== Proof.KernelBlocks.lean ====
/-
  The kernel's nine windows over the 16 grid points, each block read at an entry.

  At point t the input and hidden-state windows hold rows 512·t .. 512·t + 511 of their arrays; the four weight windows
  and the two bias windows hold their whole arrays at every point (their block index is 0 throughout). The printed index
  maps are decided once over the grid.
-/
import proofs.«173993_j78451872628868_2_alg».proof.Proof.Gen.KernelIdeal.Frame
import proofs.«173993_j78451872628868_2_alg».proof.Proof.GruSpec
import Idealize.ShloMosaic.Lib.Pipeline.Value

noncomputable section

namespace Cert.KernelIdeal.CellValue

open Cert.KernelIdeal Cert.KernelIdeal.Gen Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 16 grid points: the input, hidden-state and output windows sit at block
    row t, column block 0; every weight and bias window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = t.val ∧ win0_8.index t (1 : Fin 2) = 0 :=
  (by decide +kernel : ∀ t : Fin grid0.N, _)

/-! ## The windows' blocks, read at an entry -/

/-- Row p of the input window's block at point t is row 512·t + p of the input array. -/
theorem xblk_at (c : Dev nD) (t : Fin cfg0.N) (p : Fin 512) (k : Fin 1024) (b : Fin 8192) (hb : b.val = 512 * t.val + p.val) :
    (iblk m c 0 t : S512x1024.Idx → EReal) (ix2 p k) = (m ((c : Thread nD τ).loc main_arg0) : S8192x1024.Idx → EReal) (ix2 b k) := by
  obtain ⟨e00, e01, e10, e11, e20, e21, e30, e31, e40, e41, e50, e51, e60, e70, e80, e81⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * p.val = b.val; rw [e00, hb]; omega
  | ⟨1, _⟩ => show win0_0.index t (1 : Fin 2) * 1024 + 1 * k.val = k.val; rw [e01]; omega

/-- Row p of the hidden-state window's block at point t is row 512·t + p of the hidden-state array. -/
theorem hblk_at (c : Dev nD) (t : Fin cfg0.N) (p : Fin 512) (k : Fin 1024) (b : Fin 8192) (hb : b.val = 512 * t.val + p.val) :
    (iblk m c 1 t : S512x1024.Idx → EReal) (ix2 p k) = (m ((c : Thread nD τ).loc main_arg1) : S8192x1024.Idx → EReal) (ix2 b k) := by
  obtain ⟨e00, e01, e10, e11, e20, e21, e30, e31, e40, e41, e50, e51, e60, e70, e80, e81⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 512 + 1 * p.val = b.val; rw [e10, hb]; omega
  | ⟨1, _⟩ => show win0_1.index t (1 : Fin 2) * 1024 + 1 * k.val = k.val; rw [e11]; omega

/-- The gates' stacked hidden-state weight window holds its whole array at every point. -/
theorem wzrh_blk (c : Dev nD) (t : Fin cfg0.N) (n : Fin 2048) (k : Fin 1024) :
    (iblk m c 2 t : S2048x1024.Idx → EReal) (ix2 n k) = (V m c main_v7 : S2048x1024.Idx → EReal) (ix2 n k) := by
  obtain ⟨e00, e01, e10, e11, e20, e21, e30, e31, e40, e41, e50, e51, e60, e70, e80, e81⟩ := idx_facts t
  unfold iblk
  rw [View.read_apply]
  show V m c main_v7 _ = V m c main_v7 _
  congr 1
  funext a
  apply Fin.ext
  match a with
  | ⟨0, _⟩ => show win0_2.index t (0 : Fin 2) * 2048 + 1 * n.val = n.val; rw [e20]; omega
  | ⟨1, _⟩ => show win0_2.index t (1 : Fin 2) * 1024 + 1 * k.val = k.val; rw [e21]; omega

/-- So does the gates' stacked input weight window, -/
theorem wzrx_blk (c : Dev nD) (t : Fin cfg0.N) (n : Fin 2048) (k : Fin 1024) :
    (iblk m c 3 t : S2048x1024.Idx → EReal) (ix2 n k) = (V m c main_v9 : S2048x1024.Idx → EReal) (ix2 n k) := by
  obtain ⟨e00, e01, e10, e11, e20, e21, e30, e31, e40, e41, e50, e51, e60, e70, e80, e81⟩ := idx_facts t
  unfold iblk
  rw [View.read_apply]
  show V m c main_v9 _ = V m c main_v9 _
  congr 1
  funext a
  apply Fin.ext
  match a with
  | ⟨0, _⟩ => show win0_3.index t (0 : Fin 2) * 2048 + 1 * n.val = n.val; rw [e30]; omega
  | ⟨1, _⟩ => show win0_3.index t (1 : Fin 2) * 1024 + 1 * k.val = k.val; rw [e31]; omega

/-- the candidate's hidden-state weight window, -/
theorem whh_blk (c : Dev nD) (t : Fin cfg0.N) (n : Fin 1024) (k : Fin 1024) :
    (iblk m c 4 t : S1024x1024.Idx → EReal) (ix2 n k) = (V m c main_v10 : S1024x1024.Idx → EReal) (ix2 n k) := by
  obtain ⟨e00, e01, e10, e11, e20, e21, e30, e31, e40, e41, e50, e51, e60, e70, e80, e81⟩ := idx_facts t
  unfold iblk
  rw [View.read_apply]
  show V m c main_v10 _ = V m c main_v10 _
  congr 1
  funext a
  apply Fin.ext
  match a with
  | ⟨0, _⟩ => show win0_4.index t (0 : Fin 2) * 1024 + 1 * n.val = n.val; rw [e40]; omega
  | ⟨1, _⟩ => show win0_4.index t (1 : Fin 2) * 1024 + 1 * k.val = k.val; rw [e41]; omega

/-- the candidate's input weight window, -/
theorem whx_blk (c : Dev nD) (t : Fin cfg0.N) (n : Fin 1024) (k : Fin 1024) :
    (iblk m c 5 t : S1024x1024.Idx → EReal) (ix2 n k) = (V m c main_v11 : S1024x1024.Idx → EReal) (ix2 n k) := by
  obtain ⟨e00, e01, e10, e11, e20, e21, e30, e31, e40, e41, e50, e51, e60, e70, e80, e81⟩ := idx_facts t
  unfold iblk
  rw [View.read_apply]
  show V m c main_v11 _ = V m c main_v11 _
  congr 1
  funext a
  apply Fin.ext
  match a with
  | ⟨0, _⟩ => show win0_5.index t (0 : Fin 2) * 1024 + 1 * n.val = n.val; rw [e50]; omega
  | ⟨1, _⟩ => show win0_5.index t (1 : Fin 2) * 1024 + 1 * k.val = k.val; rw [e51]; omega

/-- the gates' joined bias window -/
theorem bzr_blk (c : Dev nD) (t : Fin cfg0.N) (n : Fin 2048) :
    (iblk m c 6 t : S2048.Idx → EReal) (ix1 n) = (V m c main_v12 : S2048.Idx → EReal) (ix1 n) := by
  obtain ⟨e00, e01, e10, e11, e20, e21, e30, e31, e40, e41, e50, e51, e60, e70, e80, e81⟩ := idx_facts t
  unfold iblk
  rw [View.read_apply]
  show V m c main_v12 _ = V m c main_v12 _
  congr 1
  funext a
  apply Fin.ext
  match a with
  | ⟨0, _⟩ => show win0_6.index t (0 : Fin 1) * 2048 + 1 * n.val = n.val; rw [e60]; omega

/-- and the candidate's bias window, whose array is an argument. -/
theorem bh_blk (c : Dev nD) (t : Fin cfg0.N) (n : Fin 1024) :
    (iblk m c 7 t : S1024.Idx → EReal) (ix1 n) = (m ((c : Thread nD τ).loc main_arg7) : S1024.Idx → EReal) (ix1 n) := by
  obtain ⟨e00, e01, e10, e11, e20, e21, e30, e31, e40, e41, e50, e51, e60, e70, e80, e81⟩ := idx_facts t
  unfold iblk
  rw [View.read_apply]
  show V m c main_arg7 _ = m ((c : Thread nD τ).loc main_arg7) _
  rw [V_main_arg7]
  congr 1
  funext a
  apply Fin.ext
  match a with
  | ⟨0, _⟩ => show win0_7.index t (0 : Fin 1) * 1024 + 1 * n.val = n.val; rw [e70]; omega

/-- The result array's contents after the run: the cell function of the arguments' launch contents. -/
abbrev result (c : Dev nD) : Buf (Elt Ideal) ((c : Thread nD τ).loc main_v13) :=
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

end Cert.KernelIdeal.CellValue

end
-- ==== Proof.KernelOps.lean ====
/-
  The kernel body's operations that are not pointwise, each read at one entry of its result, on the extended reals.

  A matrix-unit product of a 512-row block `a` with a weight block `w` held ROW-MAJOR BY OUTPUT UNIT (the product
  contracts the last axis of both, so `w` is used transposed) into a zero accumulator: entry (p, n) is the plain sum
  ⟨a_p, w_n⟩ over the 1024 contracted positions. The two column halves of the 2048-wide pre-activation block. A bias
  vector laid as one row and repeated over the 512 rows. The logistic and the hyperbolic tangent entry by entry.
-/
import proofs.«173993_j78451872628868_2_alg».proof.Proof.Gen.KernelIdeal
import proofs.«173993_j78451872628868_2_alg».proof.Proof.GruSpec
import Idealize.ShloMosaic.Lib.ValueLayout
import Idealize.ShloMosaic.PureOps.Ideal.Laws

noncomputable section

open scoped BigOperators

namespace Cert.KernelIdeal.CellValue

open Cert.KernelIdeal Cert.KernelIdeal.Gen Idealize.ShloMosaic Idealize.ShloMosaic.ValueIdx Cert.Gru

theorem matmul_wide_apply_lhs0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem matmul_wide_apply_rhs0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The product against the two gates' stacked weight block (2048 output units): entry (p, n) is ⟨a_p, w_n⟩. -/
theorem matmul_wide_apply (a : FVec Ideal S512x1024 .bf16) (w : FVec Ideal S2048x1024 .bf16) (p : Fin 512) (n : Fin 2048) :
    matmul dot_S512x1024_S2048x1024_S512x2048_1_1_0_0_n_n none a w (constant (F := Ideal) S512x2048 .f32 0x00000000#32) (ix2 p n)
      = ∑ k : Fin 1024, a (ix2 p k) * w (ix2 n k) := by
  refine (Ideal.matmul_constant_zero_apply dot_S512x1024_S2048x1024_S512x2048_1_1_0_0_n_n none a w (ix2 p n)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p n) ((contrEquiv1 dot_S512x1024_S2048x1024_S512x2048_1_1_0_0_n_n 1024 rfl rfl).symm k) = ix2 p k :=
    funext fun ax => Fin.ext (by
      match ax with
      | ⟨0, _⟩ => exact matmul_wide_apply_lhs0 _ _
      | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p n) ((contrEquiv1 dot_S512x1024_S2048x1024_S512x2048_1_1_0_0_n_n 1024 rfl rfl).symm k) = ix2 n k :=
    funext fun ax => Fin.ext (by
      match ax with
      | ⟨0, _⟩ => exact matmul_wide_apply_rhs0 _ _
      | ⟨1, _⟩ => exact (dot_S512x1024_S2048x1024_S512x2048_1_1_0_0_n_n.rhsIdx_val_of_single rfl _ _).trans hk)
  rw [el, er]

theorem matmul_narrow_apply_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem matmul_narrow_apply_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The product against the candidate's weight block (1024 output units): entry (p, n) is ⟨a_p, w_n⟩. -/
theorem matmul_narrow_apply (a : FVec Ideal S512x1024 .bf16) (w : FVec Ideal S1024x1024 .bf16) (p : Fin 512) (n : Fin 1024) :
    matmul dot_S512x1024_S1024x1024_S512x1024_1_1_0_0_n_n none a w (constant (F := Ideal) S512x1024 .f32 0x00000000#32) (ix2 p n)
      = ∑ k : Fin 1024, a (ix2 p k) * w (ix2 n k) := by
  refine (Ideal.matmul_constant_zero_apply dot_S512x1024_S1024x1024_S512x1024_1_1_0_0_n_n none a w (ix2 p n)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p n) ((contrEquiv1 dot_S512x1024_S1024x1024_S512x1024_1_1_0_0_n_n 1024 rfl rfl).symm k) = ix2 p k :=
    funext fun ax => Fin.ext (by
      match ax with
      | ⟨0, _⟩ => exact matmul_narrow_apply_lhs0 _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p n) ((contrEquiv1 dot_S512x1024_S1024x1024_S512x1024_1_1_0_0_n_n 1024 rfl rfl).symm k) = ix2 n k :=
    funext fun ax => Fin.ext (by
      match ax with
      | ⟨0, _⟩ => exact matmul_narrow_apply_rhs0 _ _
      | ⟨1, _⟩ => exact (dot_S512x1024_S1024x1024_S512x1024_1_1_0_0_n_n.rhsIdx_val_of_single rfl _ _).trans hk)
  rw [el, er]

/-- The first 1024 columns of the 2048-wide block. -/
theorem slice_lo_apply {α : Type} (x : S512x2048.Idx → α) (h : S512x2048.Slices ![0, 0] S512x1024) (p : Fin 512) (q : Fin 1024) :
    extractStridedSlice S512x1024 ![0, 0] x h (ix2 p q) = x (ix2 p (lo q)) :=
  slice2_axis1_apply 0 x h p q (lo q) (by show q.val = 0 + q.val; omega)

/-- Its last 1024 columns. -/
theorem slice_hi_apply {α : Type} (x : S512x2048.Idx → α) (h : S512x2048.Slices ![0, 1024] S512x1024) (p : Fin 512) (q : Fin 1024) :
    extractStridedSlice S512x1024 ![0, 1024] x h (ix2 p q) = x (ix2 p (hi q)) :=
  slice2_axis1_apply 1024 x h p q (hi q) rfl

/-- The stacked bias (2048 numbers) laid as one row and repeated over the rows: entry (p, n) is the bias of unit n. -/
theorem bias_wide_apply {α : Type} (v : S2048.Idx → α) (h1 : S2048.ShapeCasts S1x2048)
    (h2 : S1x2048.Broadcasts S512x2048) (p : Fin 512) (n : Fin 2048) :
    broadcastTo S512x2048 (shapeCast S1x2048 v h1) h2 (ix2 p n) = v (ix1 n) :=
  (broadcastTo_1b_ab_apply _ h2 p n).trans (shapeCast_a_1a_apply _ h1 0 n)

/-- The candidate's bias (1024 numbers), likewise. -/
theorem bias_narrow_apply {α : Type} (v : S1024.Idx → α) (h1 : S1024.ShapeCasts S1x1024)
    (h2 : S1x1024.Broadcasts S512x1024) (p : Fin 512) (q : Fin 1024) :
    broadcastTo S512x1024 (shapeCast S1x1024 v h1) h2 (ix2 p q) = v (ix1 q) :=
  (broadcastTo_1b_ab_apply _ h2 p q).trans (shapeCast_a_1a_apply _ h1 0 q)

/-- The logistic of a block, entry by entry. -/
theorem logistic_apply {s : Shape} {φ : FTy} (x : FVec Ideal s φ) (i : s.Idx) : logistic x i = Ideal.logistic (x i) := rfl

/-- The hyperbolic tangent of a block, entry by entry. -/
theorem tanh_apply {s : Shape} {φ : FTy} (x : FVec Ideal s φ) (i : s.Idx) : tanh x i = Ideal.tanh (x i) := rfl

end Cert.KernelIdeal.CellValue

end
-- ==== Proof.KernelPayload.lean ====
/-
  The kernel body's one stored value, read at entry (p, q) of a 512-row block, is the cell function of GruSpec.lean at
  that block's row p — given what the six weight and bias blocks hold.

  The body stacks the two gates: its 2048-wide pre-activation block has the update gate's units in columns 0..1023 and
  the reset gate's in columns 1024..2047, from weight blocks whose ROWS are stacked the same way (rows 0..1023 the update
  gate's weights, rows 1024..2047 the reset gate's), one block holding the weights' hidden-state halves and one their
  input halves. The hypotheses say exactly that of the loaded blocks; the changes of float format are the identity on the
  extended reals.
-/
import proofs.«173993_j78451872628868_2_alg».proof.Proof.Gen.KernelIdeal.Skeleton
import proofs.«173993_j78451872628868_2_alg».proof.Proof.KernelOps

noncomputable section

open scoped BigOperators

namespace Cert.KernelIdeal.CellValue

open Cert.KernelIdeal Cert.KernelIdeal.Gen Idealize.ShloMosaic Idealize.ShloMosaic.ValueIdx Cert.Gru

/-- THE BODY'S VALUE AT (p, q): with `xblk`, `hblk` the input and hidden-state blocks, `wzrh` / `wzrx` the gates'
    stacked hidden and input weight halves, `whh` / `whx` the candidate's, `bzr` the gates' stacked bias and `bhv` the
    candidate's. -/
theorem payload_at (xblk hblk : FVec Ideal S512x1024 .f32) (wzrh wzrx : FVec Ideal S2048x1024 .bf16)
    (whh whx : FVec Ideal S1024x1024 .bf16) (bzr : FVec Ideal S2048 .f32) (bhv : FVec Ideal S1024 .f32)
    (Wz : Mat 1024 2048) (bz : Row 1024) (Wr : Mat 1024 2048) (br : Row 1024) (Wh : Mat 1024 2048) (bh : Row 1024)
    (hzh : ∀ j k : Fin 1024, wzrh (ix2 (lo j) k) = Wz (ix2 j (lo k)))
    (hrh : ∀ j k : Fin 1024, wzrh (ix2 (hi j) k) = Wr (ix2 j (lo k)))
    (hzx : ∀ j k : Fin 1024, wzrx (ix2 (lo j) k) = Wz (ix2 j (hi k)))
    (hrx : ∀ j k : Fin 1024, wzrx (ix2 (hi j) k) = Wr (ix2 j (hi k)))
    (hhh : ∀ j k : Fin 1024, whh (ix2 j k) = Wh (ix2 j (lo k)))
    (hhx : ∀ j k : Fin 1024, whx (ix2 j k) = Wh (ix2 j (hi k)))
    (hbz : ∀ j : Fin 1024, bzr (ix1 (lo j)) = bz (ix1 j))
    (hbr : ∀ j : Fin 1024, bzr (ix1 (hi j)) = br (ix1 j))
    (hbh : ∀ j : Fin 1024, bhv (ix1 j) = bh (ix1 j))
    (p : Fin 512) (q : Fin 1024) :
    k0_pay1 (F := Ideal) xblk hblk wzrh wzrx whh whx bzr bhv (ix2 p q)
      = cellRow (fun k => hblk (ix2 p k)) (fun k => xblk (ix2 p k)) Wz bz Wr br Wh bh q := by
  unfold k0_pay1
  simp only [addf_apply, mulf_apply, subf_apply, broadcast_apply, truncf_apply, logistic_apply, tanh_apply,
    slice_lo_apply, slice_hi_apply, matmul_wide_apply, matmul_narrow_apply, bias_wide_apply, bias_narrow_apply,
    shapeCast_self, hzh, hrh, hzx, hrx, hhh, hhx, hbz, hbr, hbh]
  rfl

end Cert.KernelIdeal.CellValue

end
-- ==== Proof.KernelValue.lean ====
/-
  From the blocks to the array: after the kernel's run the result array holds the cell function of the launch contents
  of the eight arguments.

  The grid has 16 points; at point t the input and hidden-state windows hold rows 512·t .. 512·t + 511 of their arrays and
  the output window writes back the same rows of the result, while the four weight windows and the two bias windows hold
  their whole arrays at every point. So what point t writes back is the cell function's rows 512·t .. 512·t + 511
  (the body's value at (p, q), by KernelPayload.lean, with the weight blocks read by HostPrefix.lean), and the 16 row
  blocks cover the 8192 rows: row r is in the block of point r / 512.
-/
import proofs.«173993_j78451872628868_2_alg».proof.Proof.Gen.KernelIdeal.Value
import proofs.«173993_j78451872628868_2_alg».proof.Proof.HostPrefix
import proofs.«173993_j78451872628868_2_alg».proof.Proof.KernelBlocks
import proofs.«173993_j78451872628868_2_alg».proof.Proof.KernelPayload

noncomputable section

namespace Cert.KernelIdeal.CellValue

open Cert.KernelIdeal Cert.KernelIdeal.Gen Cert.KernelIdeal.Value Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ) (ρ : Dev nD → PrngReg)

/-! ## What each point writes back, the cover, the final array -/

/-- WHAT POINT t WRITES BACK is rows 512·t .. 512·t + 511 of `result`. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz2]
  simp only [View.ld_unit_zero (S := S512x1024) hz2, View.ld_unit_zero (S := S2048x1024) hz2,
    View.ld_unit_zero (S := S1024x1024) hz2, View.ld_unit_zero (S := S2048) hz1, View.ld_unit_zero (S := S1024) hz1]
  obtain ⟨e00, e01, e10, e11, e20, e21, e30, e31, e40, e41, e50, e51, e60, e70, e80, e81⟩ := idx_facts t
  have hN : cfg0.N = 16 := N_0
  have ht : t.val < 16 := by have := t.isLt; omega
  funext y
  have hp : (y 0).val < 512 := (y 0).isLt
  have hq : (y 1).val < 1024 := (y 1).isLt
  rw [View.read_apply]
  have hxy : ((cfg0.win 8).xinj (grid0.coords t) y : S512x1024.Idx)
      = ix2 (⟨(y 0).val, hp⟩ : Fin 512) (⟨(y 1).val, hq⟩ : Fin 1024) :=
    funext fun a => by match a with | ⟨0, _⟩ => rfl | ⟨1, _⟩ => rfl
  show k0_pay1 (F := Ideal) (iblk m c 0 t) (iblk m c 1 t) (iblk m c 2 t) (iblk m c 3 t) (iblk m c 4 t) (iblk m c 5 t)
      (iblk m c 6 t) (iblk m c 7 t) ((cfg0.win 8).xinj (grid0.coords t) y)
    = (result m c : S8192x1024.Idx → EReal) (((cfg0.win 8).blk t).view.emb y)
  rw [hxy]
  have hemb : (((cfg0.win 8).blk t).view.emb y : S8192x1024.Idx)
      = ix2 (⟨512 * t.val + (y 0).val, by omega⟩ : Fin 8192) (⟨(y 1).val, hq⟩ : Fin 1024) :=
    funext fun a => Fin.ext (by
      match a with
      | ⟨0, _⟩ => show win0_8.index t (0 : Fin 2) * 512 + 1 * (y 0).val = 512 * t.val + (y 0).val; rw [e80]; omega
      | ⟨1, _⟩ => show win0_8.index t (1 : Fin 2) * 1024 + 1 * (y 1).val = (y 1).val; rw [e81]; omega)
  rw [hemb]
  refine ((payload_at (iblk m c 0 t) (iblk m c 1 t) (iblk m c 2 t) (iblk m c 3 t) (iblk m c 4 t) (iblk m c 5 t)
    (iblk m c 6 t) (iblk m c 7 t) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ?_ ?_ ?_ ?_ ?_ ?_ ?_ ?_ ?_ (⟨(y 0).val, hp⟩ : Fin 512) (⟨(y 1).val, hq⟩ : Fin 1024)).trans ?_).trans
    (cell_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (⟨512 * t.val + (y 0).val, by omega⟩ : Fin 8192) (⟨(y 1).val, hq⟩ : Fin 1024)).symm
  · intro j k; exact (wzrh_blk m c t (lo j) k).trans (wzrh_lo m c j k)
  · intro j k; exact (wzrh_blk m c t (hi j) k).trans (wzrh_hi m c j k)
  · intro j k; exact (wzrx_blk m c t (lo j) k).trans (wzrx_lo m c j k)
  · intro j k; exact (wzrx_blk m c t (hi j) k).trans (wzrx_hi m c j k)
  · intro j k; exact (whh_blk m c t j k).trans (whh_at m c j k)
  · intro j k; exact (whx_blk m c t j k).trans (whx_at m c j k)
  · intro j; exact (bzr_blk m c t (lo j)).trans (bzr_lo m c j)
  · intro j; exact (bzr_blk m c t (hi j)).trans (bzr_hi m c j)
  · intro j; exact bh_blk m c t j
  · have h1 : (fun k : Fin 1024 => (iblk m c 1 t : S512x1024.Idx → EReal) (ix2 (⟨(y 0).val, hp⟩ : Fin 512) k))
        = fun k : Fin 1024 => (m ((c : Thread nD τ).loc main_arg1) : S8192x1024.Idx → EReal) (ix2 (⟨512 * t.val + (y 0).val, by omega⟩ : Fin 8192) k) :=
      funext fun k => hblk_at m c t _ k _ rfl
    have h0 : (fun k : Fin 1024 => (iblk m c 0 t : S512x1024.Idx → EReal) (ix2 (⟨(y 0).val, hp⟩ : Fin 512) k))
        = fun k : Fin 1024 => (m ((c : Thread nD τ).loc main_arg0) : S8192x1024.Idx → EReal) (ix2 (⟨512 * t.val + (y 0).val, by omega⟩ : Fin 8192) k) :=
      funext fun k => xblk_at m c t _ k _ rfl
    rw [h1, h0]

/-- An index of the result array is in point t's block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13).slice (win0_8.rect t)).set ↔ _
  rw [View.set_slice_whole, Rect.mem_set_unit]
  exact Iff.rfl

/-- THE COVER: row r of the result is written back by point r / 512. -/
theorem cover (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨e00, e01, e10, e11, e20, e21, e30, e31, e40, e41, e50, e51, e60, e70, e80, e81⟩ := idx_facts t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    rw [e80, ht]; omega
  | ⟨1, _⟩ =>
    show win0_8.index t (1 : Fin 2) * 1024 ≤ (i 1).val ∧ (i 1).val < win0_8.index t (1 : Fin 2) * 1024 + 1024
    rw [e81]; omega

/-- THE RESULT ARRAY after the run. -/
theorem final (c : Dev nD) : (dats m 0 c).arrAt 8 cfg0.N = result m c :=
  (dats m 0 c).arrAt_eq_of_cover 8 (result m c) (fun t _ => flushed_eq m c t) cover

/-- The kernel's run, read: the result array at the cell function of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.CellValue

end
-- ==== Proof.lean ====
/-
  The proof of `Cert.Claim`: a gated recurrent cell computed block by block on the matrix unit against its plain
  reference, equal on the extended reals.

  Both programs compute, for every batch row, z = σ(pre_z), r = σ(pre_r), h̃ = tanh(pre_h with r ⊙ h for h) and
  (1 − z) · h + z · h̃, where pre(W, b)[j] = ⟨h, W[j, :1024]⟩ + ⟨x, W[j, 1024:]⟩ + b[j]  (GruSpec.lean: `cell`).
  The reference forms the joined row [h | x] and one product over 2048 columns; the kernel cuts each weight matrix at
  column 1024 on the host, stacks the two gates' halves by rows, and on each 512-row block adds two products over 1024
  columns. A sum over 2048 terms split at the middle is the two sums added — true of sums in any commutative monoid, so
  no finiteness of the inputs is used. The kernel's narrowing of the matrix operands to a 16-bit format is the identity on
  the extended reals, and its one-operation logistic is the reference's 1 / (1 + e^(−p)).

  RefIsCell.lean reads the reference's last stage as `cell`; KernelPayload.lean reads the kernel body's stored value
  at an entry as `cell`'s row; HostPrefix.lean reads the stacked weight arrays; KernelValue.lean goes from the 16 row
  blocks to the whole result array. The three frames are the programs' generated runs; the idealization rewrote no
  operation, so `preserves` asks nothing.
-/
import proofs.«173993_j78451872628868_2_alg».proof.Defs
import proofs.«173993_j78451872628868_2_alg».proof.Proof.Gen.Kernel
import proofs.«173993_j78451872628868_2_alg».proof.Proof.Gen.Kernel.Frame
import proofs.«173993_j78451872628868_2_alg».proof.Proof.Gen.KernelIdeal
import proofs.«173993_j78451872628868_2_alg».proof.Proof.Gen.KernelIdeal.Frame
import proofs.«173993_j78451872628868_2_alg».proof.Proof.Gen.KernelIdeal.Value
import proofs.«173993_j78451872628868_2_alg».proof.Proof.Gen.ReferenceIdeal
import proofs.«173993_j78451872628868_2_alg».proof.Proof.Gen.Pre_finite_inputs
import proofs.«173993_j78451872628868_2_alg».proof.Proof.RefRun
import proofs.«173993_j78451872628868_2_alg».proof.Proof.RefIsCell
import proofs.«173993_j78451872628868_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals. -/
theorem preserves : Cert.preserves_Kernel_KernelIdeal := trivial

/-- From arguments that agree, the kernel's result array and the reference's both end at the cell function of the
    arguments. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v35_eq, Cert.ReferenceIdeal.RefValue.result_is_cell]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
